-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000, .f32⟩
  | .hbm, ⟨103, _⟩ => ⟨S1700000, .f32⟩
  | .hbm, ⟨104, _⟩ => ⟨S100000x40, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x40, .f32⟩
  | .hbm, ⟨114, _⟩ => ⟨S1700000x1, .f32⟩
  | .hbm, ⟨115, _⟩ => ⟨S1700000x40, .f32⟩
  | .hbm, ⟨116, _⟩ => ⟨S1700000x40, .f32⟩
  | .hbm, ⟨117, _⟩ => ⟨S_, .f32⟩
  | .hbm, ⟨118, _⟩ => ⟨S100000x40, .f32⟩
  | .hbm, ⟨119, _⟩ => ⟨S1700000x1, .i32⟩
  | .hbm, ⟨120, _⟩ => ⟨S100000x40, .f32⟩
  | .hbm, ⟨121, _⟩ => ⟨S1x40, .f32⟩
  | .hbm, ⟨122, _⟩ => ⟨S100000x40, .f32⟩
  | .hbm, ⟨123, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«124230_j49400713838982_1_alg».proof.Proof.LibPlainDot
import proofs.«124230_j49400713838982_1_alg».proof.Proof.LibBiasRow
import proofs.«124230_j49400713838982_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibPowOne.lean ====
/-
  The power with exponent one, on the extended reals.

  The single-precision word 0x3F800000 is the real number 1, and raising any extended real to the power 1 gives it
  back: −∞ to any power is −∞ by convention, +∞ to a positive power is +∞, and a real base x to the real power 1 is x
  whatever the sign of x.  So a program that writes q ** 1.0 computes q, with no condition on q.
-/
import Idealize.ShloMosaic.PureOps.Ideal

noncomputable section

namespace Cert.LibPowOne

open Idealize.ShloMosaic

/-- The word 0x3F800000 has sign 0, biased exponent 127 and mantissa 0: the real number 1. -/
theorem ofBits_one_f32 : Ideal.ofBits .f32 0x3F800000#32 = 1 := by
  simp [Ideal.ofBits, Ideal.ieee, -EReal.coe_mul]; norm_num

/-- Raising to the power 1 changes nothing, on every extended real: −∞ stays −∞, +∞ to a positive power is +∞, and
    on a real base it is the real power x¹ = x (whatever the sign of x). -/
theorem pow_one (q : EReal) : Ideal.pow q 1 = q := by
  rw [← EReal.coe_one]
  induction q using EReal.rec with
  | bot => rfl
  | top =>
    rw [Ideal.pow_top, if_pos (by exact_mod_cast one_pos)]
  | coe x =>
    rw [Ideal.pow_coe_coe]
    show ((x ^ (1 : ℝ) : ℝ) : EReal) = x
    rw [Real.rpow_one]

/-- The same with the exponent spelt as the single-precision word of 1.0. -/
theorem pow_ofBits_one_f32 (q : EReal) : Ideal.pow q (Ideal.ofBits .f32 0x3F800000#32) = q := by
  rw [ofBits_one_f32]
  exact pow_one q

end Cert.LibPowOne

end
-- ==== Proof.GcnSpec.lean ====
/-
  The two-layer graph convolution, as one function of the six argument arrays.

  The graph has 100000 nodes and 1600000 listed edges; every node also gets a loop to itself, so the edge list has
  1700000 entries: sources `srcOf ei` (row 0 of the index array, then 0 … 99999) and destinations `dstOf ei` (row 1,
  then 0 … 99999).  The degree of a node is the number of edge entries arriving at it (a scatter-add of ones along the
  destinations); `dinv` is the reciprocal square root of the degree where the degree is positive and 0 elsewhere; the
  weight of an edge is the product of `dinv` at its source and at its destination (indices below zero wrapped by the
  node count first, as an indexing expression does).

  One layer takes a node matrix t, gathers for every edge entry the row of t at the edge's source, scales it by the edge's
  weight and adds it into the row of the edge's destination (`agg64`, `agg40`: the same aggregation at the two widths).
  The network is
      out = agg40 (relu (agg64 (x · W1) + b1) · W2) + b2,
  the matrix products `mm`, the bias rows `addRow` and the floor at zero `relu` of the row-stage library.

  The edge weight is written two ways: dinv[src] · dinv[dst] (`weightPlain`) and (dinv[src] · 1) · dinv[dst]
  (`weightUnit`, the 1 being an explicit unit edge weight).  On the extended reals a · 1 = a for every a, infinite or
  not, so the two are one vector (`weightUnit_eq`): nothing about the inputs is needed.
-/
import proofs.«124230_j49400713838982_1_alg».proof.KernelIdeal
import proofs.«124230_j49400713838982_1_alg».proof.Proof.Gen.KernelIdeal
import proofs.«124230_j49400713838982_1_alg».proof.Proof.LibRowStages
import proofs.«124230_j49400713838982_1_alg».proof.Proof.LibPowOne
import Idealize.ShloMosaic.PureOps.Ideal
import Idealize.ShloMosaic.Lib.ValueIdx
import Idealize.ShloMosaic.Lib.Pipeline.Value

noncomputable section

namespace Cert.Gcn

open Idealize.ShloMosaic Idealize.ShloMosaic.ValueIdx Cert.KernelIdeal Cert.LibRowStages
open Cert.KernelIdeal.Facts₀ Cert.KernelIdeal.Facts

/-- A vector of edge entries' node indices. -/
abbrev EdgeIdx : Type := IVec S1700000 32
/-- The same as a one-column matrix, the form a gather or a scatter takes its start indices in. -/
abbrev EdgeIdxCol : Type := IVec S1700000x1 32
/-- One extended real per edge entry. -/
abbrev EdgeVec : Type := FVec Ideal S1700000 .f32
/-- One extended real per node. -/
abbrev NodeVec : Type := FVec Ideal S100000 .f32
/-- The [2, 1600000] array of listed edges. -/
abbrev EdgeList : Type := IVec S2x1600000 32

/-- The sources: row 0 of the edge list, then every node once (the loops). -/
def srcOf (ei : EdgeList) : EdgeIdx :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The destinations: row 1 of the edge list, then every node once. -/
def dstOf (ei : EdgeList) : EdgeIdx :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- Indices as a column. -/
def col (v : EdgeIdx) : EdgeIdxCol := broadcastInDim S1700000x1 ![0] bcast_S1700000_S1700000x1_0 v

/-- Indices with the negative ones wrapped by the node count, as a column (how an indexing expression reads them). -/
def wrap (v : EdgeIdx) : EdgeIdxCol :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The unit weight of every edge entry. -/
def ones : EdgeVec := broadcastInDim S1700000 ![] bcast_S_S1700000 (constant (F := Ideal) S_ .f32 0x3F800000#32)

/-- The zero vector over the nodes. -/
def zeroNodes : NodeVec := broadcastInDim S100000 ![] bcast_S_S100000 (constant (F := Ideal) S_ .f32 0x00000000#32)

/-- The degree of each node: the number of edge entries arriving at it. -/
def deg (dst : EdgeIdx) : NodeVec :=
  Host.scatterAdd (F := Ideal) scatter_S100000_S1700000x1_S1700000_n_0_0_1 zeroNodes (col dst) ones

/-- The reciprocal square root of the degree where it is positive, 0 elsewhere. -/
def dinv (dst : EdgeIdx) : NodeVec :=
  select (cmpf (F := Ideal) .ogt (deg dst) zeroNodes) (Host.rsqrt (F := Ideal) (deg dst)) zeroNodes

/-- `dinv` read at the (wrapped) entries of an index vector. -/
def dinvAt (dst v : EdgeIdx) : EdgeVec :=
  Host.gather gather_S100000_S1700000x1_S1700000_n_0_n_n_0_1_1 (dinv dst) (wrap v)

/-- The weight of an edge entry: dinv at its source times dinv at its destination. -/
def weightPlain (src dst : EdgeIdx) : EdgeVec := mulf (F := Ideal) (dinvAt dst src) (dinvAt dst dst)

/-- The same with an explicit unit edge weight between the two factors. -/
def weightUnit (src dst : EdgeIdx) : EdgeVec := mulf (F := Ideal) (mulf (F := Ideal) (dinvAt dst src) ones) (dinvAt dst dst)

/-- One aggregation at width 64: for every edge entry the row of t at its source, times the entry's weight, added into
    the row of its destination. -/
def agg64 (t : Mat 100000 64) (src dst : EdgeIdx) (w : EdgeVec) : Mat 100000 64 :=
  Host.scatterAdd (F := Ideal) scatter_S100000x64_S1700000x1_S1700000x64_1_0_0_1
    (broadcastInDim S100000x64 ![] bcast_S_S100000x64 (constant (F := Ideal) S_ .f32 0x00000000#32)) (col dst)
    (mulf (F := Ideal) (Host.gather gather_S100000x64_S1700000x1_S1700000x64_1_0_n_n_0_1_164 t (wrap src))
      (broadcastInDim S1700000x64 ![0, 1] bcast_S1700000x1_S1700000x64_0_1
        (broadcastInDim S1700000x1 ![0] bcast_S1700000_S1700000x1_0 w)))

/-- The same at width 40. -/
def agg40 (t : Mat 100000 40) (src dst : EdgeIdx) (w : EdgeVec) : Mat 100000 40 :=
  Host.scatterAdd (F := Ideal) scatter_S100000x40_S1700000x1_S1700000x40_1_0_0_1
    (broadcastInDim S100000x40 ![] bcast_S_S100000x40 (constant (F := Ideal) S_ .f32 0x00000000#32)) (col dst)
    (mulf (F := Ideal) (Host.gather gather_S100000x40_S1700000x1_S1700000x40_1_0_n_n_0_1_140 t (wrap src))
      (broadcastInDim S1700000x40 ![0, 1] bcast_S1700000x1_S1700000x40_0_1
        (broadcastInDim S1700000x1 ![0] bcast_S1700000_S1700000x1_0 w)))

/-- The hidden layer: relu (agg64 (x · W1) + b1), the bias as a one-row matrix. -/
def hidden (x : Mat 100000 128) (src dst : EdgeIdx) (w : EdgeVec) (W1 : Mat 128 64) (b1 : Mat 1 64) : Mat 100000 64 :=
  relu (addRow (agg64 (mm x W1) src dst w) b1)

/-- The network's output: agg40 (hidden · W2) + b2. -/
def network (x : Mat 100000 128) (src dst : EdgeIdx) (w : EdgeVec) (W1 : Mat 128 64) (b1 : Mat 1 64) (W2 : Mat 64 40)
    (b2 : Mat 1 40) : Mat 100000 40 :=
  addRow (agg40 (mm (hidden x src dst w W1 b1) W2) src dst w) b2

end Cert.Gcn

end
-- ==== Proof.GcnWeight.lean ====
/-
  The explicit unit edge weight changes nothing.

  The unit weight vector holds the single-precision word of 1.0 at every edge entry, which denotes the real number 1; on
  the extended reals a · 1 = a for every a (the infinities included), so (dinv[src] · 1) · dinv[dst] and
  dinv[src] · dinv[dst] are the same vector, entry by entry.
-/
import proofs.«124230_j49400713838982_1_alg».proof.Proof.GcnSpec

noncomputable section

namespace Cert.Gcn

open Idealize.ShloMosaic Idealize.ShloMosaic.ValueIdx Cert.KernelIdeal
open Cert.KernelIdeal.Facts₀ Cert.KernelIdeal.Facts

/-- Every entry of `ones` is the real number 1. -/
theorem ones_apply (i : S1700000.Idx) : ones i = 1 := by
  unfold ones
  rw [broadcastInDim_apply ![] bcast_S_S1700000 _ i ix0 (fun a => a.elim0), constant_apply]
  exact Cert.LibPowOne.ofBits_one_f32

/-- a · 1 = a on the extended reals, so the explicit unit weight changes nothing. -/
theorem weightUnit_eq (src dst : EdgeIdx) : weightUnit src dst = weightPlain src dst := by
  funext i
  unfold weightUnit weightPlain
  rw [mulf_apply, mulf_apply, mulf_apply, ones_apply, mul_one]

end Cert.Gcn

end
-- ==== Proof.KernelRun.lean ====
/-
  The idealized kernel program's run, with its result array named.

  @main is nine segments: stretches of host operations and the four regions, each entered from the buffer contents the
  previous one left.  The buffer contents after the last segment are the fold `Gen.W9`; every execution ends with every
  unscoped buffer at those contents.  Read at the result buffer this names the program's result; read at the six argument
  buffers it gives them back as launched.
-/
import proofs.«124230_j49400713838982_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.HostStretches.lean ====
/-
  The kernel program's five stretches of host operations, each as a function of the buffer contents it starts from.

  Before region 0: the sources and destinations of the edge entries (the listed edges, then a loop per node), the degree of
  every node as a scatter-add of ones along the destinations, its reciprocal square root where positive, and the edge
  weights dinv[src] · dinv[dst].  Between regions 0 and 1 and between regions 2 and 3: one aggregation (gather the rows
  of the node matrix at the wrapped sources, scale by the weights, scatter-add along the destinations) and the bias
  vector reshaped to a row.  A buffer a stretch does not write keeps its contents.
-/
import proofs.«124230_j49400713838982_1_alg».proof.Proof.Gen.KernelIdeal.Launch
import proofs.«124230_j49400713838982_1_alg».proof.Proof.GcnSpec
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.LibRowStages Cert.Gcn

-- the buffer contents a stretch starts from
variable (X : Valuation τ sig (Elt Ideal))

/-! ## The first stretch: sources, destinations, degree -/

set_option maxHeartbeats 4000000 in
theorem src_eq : StableHlo.after hostOps0 X (Proc.devRef .tc main_v3) = srcOf (X (Proc.devRef .tc main_arg1)) := by
  after_results_simp <;> rfl

set_option maxHeartbeats 4000000 in
theorem dst_eq : StableHlo.after hostOps0 X (Proc.devRef .tc main_v6) = dstOf (X (Proc.devRef .tc main_arg1)) := by
  after_results_simp <;> rfl

set_option maxHeartbeats 4000000 in
theorem positive_eq : StableHlo.after hostOps0 X (Proc.devRef .tc main_v12)
    = cmpf (F := Ideal) .ogt (deg (dstOf (X (Proc.devRef .tc main_arg1)))) zeroNodes := by
  after_results_simp <;> rfl

set_option maxHeartbeats 4000000 in
theorem rsqrt_eq : StableHlo.after hostOps0 X (Proc.devRef .tc main_v13)
    = Host.rsqrt (F := Ideal) (deg (dstOf (X (Proc.devRef .tc main_arg1)))) := by
  after_results_simp <;> rfl

set_option maxHeartbeats 4000000 in
theorem zero_eq : StableHlo.after hostOps0 X (Proc.devRef .tc main_cst_2) = constant (F := Ideal) S_ .f32 0x00000000#32 := by
  after_results_simp <;> rfl

/-! ## The second stretch: the reciprocal square root where the degree is positive, zero elsewhere -/

set_option maxHeartbeats 4000000 in
theorem where_eq : StableHlo.after hostOps0_1 X (Proc.devRef .tc main_v14)
    = select (X (Proc.devRef .tc main_v12)) (X (Proc.devRef .tc main_v13)) (broadcastInDim S100000 ![] bcast_S_S100000 (X (Proc.devRef .tc main_cst_2))) := by
  after_results_simp <;> rfl

/-! ## The third stretch: the edge weights -/

set_option maxHeartbeats 4000000 in
theorem weight_eq : StableHlo.after hostOps0_2 X (Proc.devRef .tc main_v29)
    = mulf (F := Ideal) (φ := .f32) (Host.gather gather_S100000_S1700000x1_S1700000_n_0_n_n_0_1_1 (X (Proc.devRef .tc main_v14)) (wrap (X (Proc.devRef .tc main_v3))))
        (Host.gather gather_S100000_S1700000x1_S1700000_n_0_n_n_0_1_1 (X (Proc.devRef .tc main_v14)) (wrap (X (Proc.devRef .tc main_v6)))) := by
  after_results_simp <;> rfl

/-! ## The stretch between regions 0 and 1: the first aggregation, the first bias row -/

set_option maxHeartbeats 4000000 in
theorem aggregate64_eq : StableHlo.after hostOps1 X (Proc.devRef .tc main_v43)
    = agg64 (X (Proc.devRef .tc main_v30)) (X (Proc.devRef .tc main_v3)) (X (Proc.devRef .tc main_v6)) (X (Proc.devRef .tc main_v29)) := by
  after_results_simp <;> rfl

set_option maxHeartbeats 4000000 in
theorem biasRow64_eq : StableHlo.after hostOps1 X (Proc.devRef .tc main_v44)
    = shapeCast S1x64 (X (Proc.devRef .tc main_arg3)) shapeCasts_S64_S1x64 := by
  after_results_simp <;> rfl

/-! ## The stretch between regions 2 and 3: the second aggregation, the second bias row -/

set_option maxHeartbeats 4000000 in
theorem aggregate40_eq : StableHlo.after hostOps3 X (Proc.devRef .tc main_v59)
    = agg40 (X (Proc.devRef .tc main_v46)) (X (Proc.devRef .tc main_v3)) (X (Proc.devRef .tc main_v6)) (X (Proc.devRef .tc main_v29)) := by
  after_results_simp <;> rfl

set_option maxHeartbeats 4000000 in
theorem biasRow40_eq : StableHlo.after hostOps3 X (Proc.devRef .tc main_v60)
    = shapeCast S1x40 (X (Proc.devRef .tc main_arg5)) shapeCasts_S40_S1x40 := by
  after_results_simp <;> rfl

/-! ## Buffers a stretch does not write keep their contents -/

theorem hostOps0_keeps_main_arg0 : StableHlo.after hostOps0 X (Proc.devRef .tc main_arg0) = X (Proc.devRef .tc main_arg0) := by
  after_results_simp

theorem hostOps0_keeps_main_arg1 : StableHlo.after hostOps0 X (Proc.devRef .tc main_arg1) = X (Proc.devRef .tc main_arg1) := by
  after_results_simp

theorem hostOps0_keeps_main_arg2 : StableHlo.after hostOps0 X (Proc.devRef .tc main_arg2) = X (Proc.devRef .tc main_arg2) := by
  after_results_simp

theorem hostOps0_keeps_main_arg3 : StableHlo.after hostOps0 X (Proc.devRef .tc main_arg3) = X (Proc.devRef .tc main_arg3) := by
  after_results_simp

theorem hostOps0_keeps_main_arg4 : StableHlo.after hostOps0 X (Proc.devRef .tc main_arg4) = X (Proc.devRef .tc main_arg4) := by
  after_results_simp

theorem hostOps0_keeps_main_arg5 : StableHlo.after hostOps0 X (Proc.devRef .tc main_arg5) = X (Proc.devRef .tc main_arg5) := by
  after_results_simp

theorem hostOps0_1_keeps_main_arg0 : StableHlo.after hostOps0_1 X (Proc.devRef .tc main_arg0) = X (Proc.devRef .tc main_arg0) := by
  after_results_simp

theorem hostOps0_1_keeps_main_arg2 : StableHlo.after hostOps0_1 X (Proc.devRef .tc main_arg2) = X (Proc.devRef .tc main_arg2) := by
  after_results_simp

theorem hostOps0_1_keeps_main_arg3 : StableHlo.after hostOps0_1 X (Proc.devRef .tc main_arg3) = X (Proc.devRef .tc main_arg3) := by
  after_results_simp

theorem hostOps0_1_keeps_main_arg4 : StableHlo.after hostOps0_1 X (Proc.devRef .tc main_arg4) = X (Proc.devRef .tc main_arg4) := by
  after_results_simp

theorem hostOps0_1_keeps_main_arg5 : StableHlo.after hostOps0_1 X (Proc.devRef .tc main_arg5) = X (Proc.devRef .tc main_arg5) := by
  after_results_simp

theorem hostOps0_1_keeps_main_v3 : StableHlo.after hostOps0_1 X (Proc.devRef .tc main_v3) = X (Proc.devRef .tc main_v3) := by
  after_results_simp

theorem hostOps0_1_keeps_main_v6 : StableHlo.after hostOps0_1 X (Proc.devRef .tc main_v6) = X (Proc.devRef .tc main_v6) := by
  after_results_simp

theorem hostOps0_2_keeps_main_arg0 : StableHlo.after hostOps0_2 X (Proc.devRef .tc main_arg0) = X (Proc.devRef .tc main_arg0) := by
  after_results_simp

theorem hostOps0_2_keeps_main_arg2 : StableHlo.after hostOps0_2 X (Proc.devRef .tc main_arg2) = X (Proc.devRef .tc main_arg2) := by
  after_results_simp

theorem hostOps0_2_keeps_main_arg3 : StableHlo.after hostOps0_2 X (Proc.devRef .tc main_arg3) = X (Proc.devRef .tc main_arg3) := by
  after_results_simp

theorem hostOps0_2_keeps_main_arg4 : StableHlo.after hostOps0_2 X (Proc.devRef .tc main_arg4) = X (Proc.devRef .tc main_arg4) := by
  after_results_simp

theorem hostOps0_2_keeps_main_arg5 : StableHlo.after hostOps0_2 X (Proc.devRef .tc main_arg5) = X (Proc.devRef .tc main_arg5) := by
  after_results_simp

theorem hostOps0_2_keeps_main_v3 : StableHlo.after hostOps0_2 X (Proc.devRef .tc main_v3) = X (Proc.devRef .tc main_v3) := by
  after_results_simp

theorem hostOps0_2_keeps_main_v6 : StableHlo.after hostOps0_2 X (Proc.devRef .tc main_v6) = X (Proc.devRef .tc main_v6) := by
  after_results_simp

theorem hostOps1_keeps_main_arg4 : StableHlo.after hostOps1 X (Proc.devRef .tc main_arg4) = X (Proc.devRef .tc main_arg4) := by
  after_results_simp

theorem hostOps1_keeps_main_arg5 : StableHlo.after hostOps1 X (Proc.devRef .tc main_arg5) = X (Proc.devRef .tc main_arg5) := by
  after_results_simp

theorem hostOps1_keeps_main_v3 : StableHlo.after hostOps1 X (Proc.devRef .tc main_v3) = X (Proc.devRef .tc main_v3) := by
  after_results_simp

theorem hostOps1_keeps_main_v6 : StableHlo.after hostOps1 X (Proc.devRef .tc main_v6) = X (Proc.devRef .tc main_v6) := by
  after_results_simp

theorem hostOps1_keeps_main_v29 : StableHlo.after hostOps1 X (Proc.devRef .tc main_v29) = X (Proc.devRef .tc main_v29) := by
  after_results_simp

end Cert.KernelIdeal.Host

end
-- ==== Proof.LibRowBlocks.lean ====
/-
  Row-wise stages on a block of rows, entry by entry.

  The matrix product, the bias row added to every row and the floor at zero (`mm`, `addRow`, `relu` on matrices of
  extended reals) each compute an entry of their result from one row of the matrix operand.  So an entry of a stage
  applied to a block of rows is the entry of the stage applied to the whole matrix, at the row of the whole matrix the
  block's row is: for the product when the two rows agree entry by entry and the weight columns agree, for the bias row
  when the two matrix entries agree and the two bias entries of that column agree, for the floor when the entries agree.
  Nothing is distributed or cancelled, so these hold at the infinities.  They are what a kernel that walks a matrix in
  blocks of rows needs at a grid point: the block's entry on the left, the whole array's on the right.
-/
import proofs.«124230_j49400713838982_1_alg».proof.Proof.LibRowStages

noncomputable section

open scoped BigOperators

namespace Cert.LibRowBlocks

open Idealize.ShloMosaic Idealize.ShloMosaic.ValueIdx Cert.LibRowStages

/-- Two index pairs with equal coordinates are equal. -/
theorem ix2_congr {a b : ℕ} {p p' : Fin a} {q q' : Fin b} (hp : p = p') (hq : q = q') : ix2 p q = ix2 p' q' := by
  subst hp hq; rfl

/-- An entry of a product of blocks is the entry of the product of the whole matrices, when the block's row is the
    matrix's row and the weight columns agree. -/
theorem mm_block {n k d N : ℕ} (xb : Mat n k) (wb : Mat k d) (X : Mat N k) (W : Mat k d)
    (j : (⟨2, ![n, d]⟩ : Shape).Idx) (i : (⟨2, ![N, d]⟩ : Shape).Idx)
    (hx : ∀ q : Fin k, xb (ix2 (j 0) q) = X (ix2 (i 0) q)) (hw : ∀ q : Fin k, wb (ix2 q (j 1)) = W (ix2 q (i 1))) :
    mm xb wb j = mm X W i :=
  Finset.sum_congr rfl fun q _ => by rw [hx q, hw q]

/-- An entry of a block plus the bias row is the entry of the whole matrix plus the bias row, when the two matrix
    entries agree and so do the two bias entries of that column. -/
theorem addRow_entry {n k N : ℕ} (xb : Mat n k) (bb : Mat 1 k) (X : Mat N k) (B : Mat 1 k)
    (j : (⟨2, ![n, k]⟩ : Shape).Idx) (i : (⟨2, ![N, k]⟩ : Shape).Idx)
    (hx : xb j = X i) (hb : bb (ix2 (0 : Fin 1) (j 1)) = B (ix2 (0 : Fin 1) (i 1))) : addRow xb bb j = addRow X B i := by
  show xb j + bb (ix2 (0 : Fin 1) (j 1)) = X i + B (ix2 (0 : Fin 1) (i 1))
  rw [hx, hb]

/-- The floor at zero of equal entries. -/
theorem relu_entry {n k N : ℕ} (a : Mat n k) (A : Mat N k) (j : (⟨2, ![n, k]⟩ : Shape).Idx) (i : (⟨2, ![N, k]⟩ : Shape).Idx)
    (h : a j = A i) : relu a j = relu A i := by
  show max (a j) floor0 = max (A i) floor0
  rw [h]

end Cert.LibRowBlocks

end
-- ==== Proof.Region0.lean ====
/-
  Region 0 of the kernel program (a [100000, 128] node matrix times a [128, 64] weight matrix), read as one whole-array function.

  The grid has ten points; point t works on rows 10000·t … 10000·t + 9999 of the node matrix and on the whole second
  operand, and writes back the same rows of the result.  What the body stores is the matrix product of the block of rows with the whole [128, 64] weight matrix: a row stage, which computes row r of its result from row r of its matrix
  operand alone.  So the block point t writes back is rows 10000·t … of the stage applied to the WHOLE arrays, and since the
  ten blocks tile the 100000 rows, the result array ends as the stage of the whole arrays as the region found them.
-/
import proofs.«124230_j49400713838982_1_alg».proof.Proof.Gen.KernelIdeal.Frame
import proofs.«124230_j49400713838982_1_alg».proof.Proof.LibRowStages
import proofs.«124230_j49400713838982_1_alg».proof.Proof.LibRowBlocks
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.LibRowStages

-- the arrays as the region finds them: the parameter the region's proof data are stated at
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the matrix product of the block of rows with the whole [128, 64] weight matrix. -/
theorem payload_eq (x0 : Vec Ideal S10000x128 .f32) (x1 : Vec Ideal S128x64 .f32) :
    k0_pay1 (F := Ideal) x0 x1 = mm x0 x1 := by
  unfold k0_pay1
  exact matmul_eq_mm dot_S10000x128_S128x64_S10000x64_1_0_0_1_n_n rfl rfl rfl rfl rfl rfl none _ _

/-- The index maps over the grid: the first operand's and the result's blocks sit at row block t, column block 0; the
    second operand's one block at (0, 0). -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem index_onto : ∀ q : Fin 10, ∃ t : Fin cfg0.N, win0_2.index t = ![q.val, 0] :=
  (by decide +kernel : ∀ q : Fin 10, ∃ t : Fin grid0.N, win0_2.index t = ![q.val, 0])

/-- What point t writes back is block t of the stage of the whole arrays. -/
theorem flushed_eq (c : Dev nD) (t : Fin cfg0.N) :
    (dat0 (F := Ideal) V c).flushed 2 t
      = ((cfg0.win 2).blk t).view.read (Elt Ideal) (mm (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x64) zero_offsets]
  rw [payload_eq]
  obtain ⟨e0, e1, e2, e3, e4⟩ := index_facts t
  funext j
  show (mm (iblk0 V c 0 t) (iblk0 V c 1 t)) j = (mm (V c main_arg0) (V c main_arg2)) (((cfg0.win 2).blk t).view.emb j)
  refine Cert.LibRowBlocks.mm_block (iblk0 V c 0 t) (iblk0 V c 1 t) (V c main_arg0) (V c main_arg2) j (((cfg0.win 2).blk t).view.emb j) (fun q => ?_) (fun q => ?_)
  · show V c main_arg0 (((cfg0.win 0).blk t).view.emb (ix2 (j 0) q)) = V c main_arg0 (ix2 ((((cfg0.win 2).blk t).view.emb j) 0) q)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * q.val = q.val; omega
  · show V c main_arg2 (((cfg0.win 1).blk t).view.emb (ix2 q (j 1))) = V c main_arg2 (ix2 q ((((cfg0.win 2).blk t).view.emb j) 1))
    refine congrArg (V c main_arg2) (funext fun a => Fin.ext ?_)
    match a with
    | ⟨0, _⟩ => show win0_1.index t (0 : Fin 2) * 128 + 1 * q.val = q.val; omega
    | ⟨1, _⟩ => show win0_1.index t (1 : Fin 2) * 64 + 1 * (j 1).val = win0_2.index t (1 : Fin 2) * 64 + 1 * (j 1).val; omega

/-- An index of the result array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the rows: row r is in the block of point r / 10000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region is the stage of the whole arrays as the region found them. -/
theorem final (c : Dev nD) : (dat0 (F := Ideal) V c).arrAt 2 cfg0.N = mm (V c main_arg0) (V c main_arg2) :=
  (dat0 (F := Ideal) V c).arrAt_eq_of_cover 2 (mm (V c main_arg0) (V c main_arg2)) (fun t _ => flushed_eq V c t) covered

end Cert.KernelIdeal.Region0

end
-- ==== Proof.Region1.lean ====
/-
  Region 1 of the kernel program (a bias row added to a [100000, 64] node matrix and the floor at zero), read as one whole-array function.

  The grid has ten points; point t works on rows 10000·t … 10000·t + 9999 of the node matrix and on the whole second
  operand, and writes back the same rows of the result.  What the body stores is the block of rows plus the bias row, floored at zero: a row stage, which computes row r of its result from row r of its matrix
  operand alone.  So the block point t writes back is rows 10000·t … of the stage applied to the WHOLE arrays, and since the
  ten blocks tile the 100000 rows, the result array ends as the stage of the whole arrays as the region found them.
-/
import proofs.«124230_j49400713838982_1_alg».proof.Proof.Gen.KernelIdeal.Frame
import proofs.«124230_j49400713838982_1_alg».proof.Proof.LibRowStages
import proofs.«124230_j49400713838982_1_alg».proof.Proof.LibRowBlocks
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.LibRowStages

-- the arrays as the region finds them: the parameter the region's proof data are stated at
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the block of rows plus the bias row, floored at zero. -/
theorem payload_eq (x0 : Vec Ideal S10000x64 .f32) (x1 : Vec Ideal S1x64 .f32) :
    k1_pay1 (F := Ideal) x0 x1 = relu (addRow x0 x1) := by
  unfold k1_pay1
  show maximumf (addf (shapeCast S10000x64 x0 shapeCasts_S10000x64_S10000x64) (broadcastTo S10000x64 (shapeCast S1x64 x1 shapeCasts_S1x64_S1x64) broadcasts_S1x64_S10000x64))
    (broadcast S10000x64 (Scalar.ofBits (F := Ideal) .f32 0x00000000#32)) = _
  rw [shapeCast_self, shapeCast_self, addf_spread_eq_addRow, maximumf_zero_eq_relu]

/-- The index maps over the grid: the first operand's and the result's blocks sit at row block t, column block 0; the
    second operand's one block at (0, 0). -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every one of the ten row blocks is some point's. -/
theorem index_onto : ∀ q : Fin 10, ∃ t : Fin cfg1.N, win1_2.index t = ![q.val, 0] :=
  (by decide +kernel : ∀ q : Fin 10, ∃ t : Fin grid1.N, win1_2.index t = ![q.val, 0])

/-- What point t writes back is block t of the stage of the whole arrays. -/
theorem flushed_eq (c : Dev nD) (t : Fin cfg1.N) :
    (dat1 (F := Ideal) V c).flushed 2 t
      = ((cfg1.win 2).blk t).view.read (Elt Ideal) (relu (addRow (V c main_v43) (V c main_v44))) := by
  show (cfg1.win 2).cut (grid1.coords t) ((dat1 (F := Ideal) V c).after 2 t) = _
  rw [after1_2]
  unfold out1_2
  rw [View.canon_unit_zero zero_offsets]
  simp only [View.ld_unit_zero (S := S10000x64) zero_offsets, View.ld_unit_zero (S := S1x64) zero_offsets]
  rw [payload_eq]
  obtain ⟨e0, e1, e2, e3, e4⟩ := index_facts t
  funext j
  show (relu (addRow (iblk1 V c 0 t) (iblk1 V c 1 t))) j = (relu (addRow (V c main_v43) (V c main_v44))) (((cfg1.win 2).blk t).view.emb j)
  refine Cert.LibRowBlocks.relu_entry (addRow (iblk1 V c 0 t) (iblk1 V c 1 t)) (addRow (V c main_v43) (V c main_v44)) j (((cfg1.win 2).blk t).view.emb j)
    (Cert.LibRowBlocks.addRow_entry (iblk1 V c 0 t) (iblk1 V c 1 t) (V c main_v43) (V c main_v44) j (((cfg1.win 2).blk t).view.emb j) ?_ ?_)
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v44 (((cfg1.win 1).blk t).view.emb (ix2 (0 : Fin 1) (j 1))) = V c main_v44 (ix2 (0 : Fin 1) ((((cfg1.win 2).blk t).view.emb j) 1))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of the result array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The ten blocks tile the rows: row r is in the block of point r / 10000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the region is the stage of the whole arrays as the region found them. -/
theorem final (c : Dev nD) : (dat1 (F := Ideal) V c).arrAt 2 cfg1.N = relu (addRow (V c main_v43) (V c main_v44)) :=
  (dat1 (F := Ideal) V c).arrAt_eq_of_cover 2 (relu (addRow (V c main_v43) (V c main_v44))) (fun t _ => flushed_eq V c t) covered

end Cert.KernelIdeal.Region1

end
-- ==== Proof.Region2.lean ====
/-
  Region 2 of the kernel program (a [100000, 64] node matrix times a [64, 40] weight matrix), read as one whole-array function.

  The grid has ten points; point t works on rows 10000·t … 10000·t + 9999 of the node matrix and on the whole second
  operand, and writes back the same rows of the result.  What the body stores is the matrix product of the block of rows with the whole [64, 40] weight matrix: a row stage, which computes row r of its result from row r of its matrix
  operand alone.  So the block point t writes back is rows 10000·t … of the stage applied to the WHOLE arrays, and since the
  ten blocks tile the 100000 rows, the result array ends as the stage of the whole arrays as the region found them.
-/
import proofs.«124230_j49400713838982_1_alg».proof.Proof.Gen.KernelIdeal.Frame
import proofs.«124230_j49400713838982_1_alg».proof.Proof.LibRowStages
import proofs.«124230_j49400713838982_1_alg».proof.Proof.LibRowBlocks
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.LibRowStages

-- the arrays as the region finds them: the parameter the region's proof data are stated at
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the matrix product of the block of rows with the whole [64, 40] weight matrix. -/
theorem payload_eq (x0 : Vec Ideal S10000x64 .f32) (x1 : Vec Ideal S64x40 .f32) :
    k2_pay1 (F := Ideal) x0 x1 = mm x0 x1 := by
  unfold k2_pay1
  show matmul (F := Ideal) dot_S10000x64_S64x40_S10000x40_1_0_0_1_n_n none (truncf (F := Ideal) .bf16 (shapeCast S10000x64 x0 shapeCasts_S10000x64_S10000x64) bitsLt_bf16_f32)
    (truncf (F := Ideal) .bf16 x1 bitsLt_bf16_f32) (constant (F := Ideal) S10000x40 .f32 0x00000000#32) = _
  rw [shapeCast_self]
  exact matmul_eq_mm dot_S10000x64_S64x40_S10000x40_1_0_0_1_n_n rfl rfl rfl rfl rfl rfl none _ _

/-- The index maps over the grid: the first operand's and the result's blocks sit at row block t, column block 0; the
    second operand's one block at (0, 0). -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every one of the ten row blocks is some point's. -/
theorem index_onto : ∀ q : Fin 10, ∃ t : Fin cfg2.N, win2_2.index t = ![q.val, 0] :=
  (by decide +kernel : ∀ q : Fin 10, ∃ t : Fin grid2.N, win2_2.index t = ![q.val, 0])

/-- What point t writes back is block t of the stage of the whole arrays. -/
theorem flushed_eq (c : Dev nD) (t : Fin cfg2.N) :
    (dat2 (F := Ideal) V c).flushed 2 t
      = ((cfg2.win 2).blk t).view.read (Elt Ideal) (mm (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S10000x64) zero_offsets, View.ld_unit_zero (S := S64x40) zero_offsets]
  rw [payload_eq]
  obtain ⟨e0, e1, e2, e3, e4⟩ := index_facts t
  funext j
  show (mm (iblk2 V c 0 t) (iblk2 V c 1 t)) j = (mm (V c main_v45) (V c main_arg4)) (((cfg2.win 2).blk t).view.emb j)
  refine Cert.LibRowBlocks.mm_block (iblk2 V c 0 t) (iblk2 V c 1 t) (V c main_v45) (V c main_arg4) j (((cfg2.win 2).blk t).view.emb j) (fun q => ?_) (fun q => ?_)
  · show V c main_v45 (((cfg2.win 0).blk t).view.emb (ix2 (j 0) q)) = V c main_v45 (ix2 ((((cfg2.win 2).blk t).view.emb j) 0) q)
    refine congrArg (V c main_v45) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * q.val = q.val; omega
  · show V c main_arg4 (((cfg2.win 1).blk t).view.emb (ix2 q (j 1))) = V c main_arg4 (ix2 q ((((cfg2.win 2).blk t).view.emb j) 1))
    refine congrArg (V c main_arg4) (funext fun a => Fin.ext ?_)
    match a with
    | ⟨0, _⟩ => show win2_1.index t (0 : Fin 2) * 64 + 1 * q.val = q.val; omega
    | ⟨1, _⟩ => show win2_1.index t (1 : Fin 2) * 40 + 1 * (j 1).val = win2_2.index t (1 : Fin 2) * 40 + 1 * (j 1).val; omega

/-- An index of the result array is in point t's block iff each coordinate is in the block's range on its axis. -/
theorem mem_block (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v46).slice (win2_2.rect t)).set ↔ _
  rw [View.set_slice_whole, Rect.mem_set_unit]
  exact Iff.rfl

/-- The ten blocks tile the rows: row r is in the block of point r / 10000. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- The result array after the region is the stage of the whole arrays as the region found them. -/
theorem final (c : Dev nD) : (dat2 (F := Ideal) V c).arrAt 2 cfg2.N = mm (V c main_v45) (V c main_arg4) :=
  (dat2 (F := Ideal) V c).arrAt_eq_of_cover 2 (mm (V c main_v45) (V c main_arg4)) (fun t _ => flushed_eq V c t) covered

end Cert.KernelIdeal.Region2

end
-- ==== Proof.Region3.lean ====
/-
  Region 3 of the kernel program (a bias row added to a [100000, 40] node matrix), read as one whole-array function.

  The grid has ten points; point t works on rows 10000·t … 10000·t + 9999 of the node matrix and on the whole second
  operand, and writes back the same rows of the result.  What the body stores is the block of rows plus the bias row: a row stage, which computes row r of its result from row r of its matrix
  operand alone.  So the block point t writes back is rows 10000·t … of the stage applied to the WHOLE arrays, and since the
  ten blocks tile the 100000 rows, the result array ends as the stage of the whole arrays as the region found them.
-/
import proofs.«124230_j49400713838982_1_alg».proof.Proof.Gen.KernelIdeal.Frame
import proofs.«124230_j49400713838982_1_alg».proof.Proof.LibRowStages
import proofs.«124230_j49400713838982_1_alg».proof.Proof.LibRowBlocks
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.LibRowStages

-- the arrays as the region finds them: the parameter the region's proof data are stated at
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the block of rows plus the bias row. -/
theorem payload_eq (x0 : Vec Ideal S10000x40 .f32) (x1 : Vec Ideal S1x40 .f32) :
    k3_pay1 (F := Ideal) x0 x1 = addRow x0 x1 := by
  unfold k3_pay1
  show addf (F := Ideal) (shapeCast S10000x40 x0 shapeCasts_S10000x40_S10000x40) (broadcastTo S10000x40 (shapeCast S1x40 x1 shapeCasts_S1x40_S1x40) broadcasts_S1x40_S10000x40) = _
  rw [shapeCast_self, shapeCast_self, addf_spread_eq_addRow]

/-- The index maps over the grid: the first operand's and the result's blocks sit at row block t, column block 0; the
    second operand's one block at (0, 0). -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every one of the ten row blocks is some point's. -/
theorem index_onto : ∀ q : Fin 10, ∃ t : Fin cfg3.N, win3_2.index t = ![q.val, 0] :=
  (by decide +kernel : ∀ q : Fin 10, ∃ t : Fin grid3.N, win3_2.index t = ![q.val, 0])

/-- What point t writes back is block t of the stage of the whole arrays. -/
theorem flushed_eq (c : Dev nD) (t : Fin cfg3.N) :
    (dat3 (F := Ideal) V c).flushed 2 t
      = ((cfg3.win 2).blk t).view.read (Elt Ideal) (addRow (V c main_v59) (V c main_v60)) := by
  show (cfg3.win 2).cut (grid3.coords t) ((dat3 (F := Ideal) V c).after 2 t) = _
  rw [after3_2]
  unfold out3_2
  rw [View.canon_unit_zero zero_offsets]
  simp only [View.ld_unit_zero (S := S10000x40) zero_offsets, View.ld_unit_zero (S := S1x40) zero_offsets]
  rw [payload_eq]
  obtain ⟨e0, e1, e2, e3, e4⟩ := index_facts t
  funext j
  show (addRow (iblk3 V c 0 t) (iblk3 V c 1 t)) j = (addRow (V c main_v59) (V c main_v60)) (((cfg3.win 2).blk t).view.emb j)
  refine (Cert.LibRowBlocks.addRow_entry (iblk3 V c 0 t) (iblk3 V c 1 t) (V c main_v59) (V c main_v60) j (((cfg3.win 2).blk t).view.emb j) ?_ ?_)
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 40 + 1 * (j 1).val = win3_2.index t (1 : Fin 2) * 40 + 1 * (j 1).val; omega
  · show V c main_v60 (((cfg3.win 1).blk t).view.emb (ix2 (0 : Fin 1) (j 1))) = V c main_v60 (ix2 (0 : Fin 1) ((((cfg3.win 2).blk t).view.emb j) 1))
    refine congrArg (V c main_v60) (funext fun a => Fin.ext ?_)
    match a with
    | ⟨0, _⟩ => show win3_1.index t (0 : Fin 2) * 1 + 1 * 0 = 0; omega
    | ⟨1, _⟩ => show win3_1.index t (1 : Fin 2) * 40 + 1 * (j 1).val = win3_2.index t (1 : Fin 2) * 40 + 1 * (j 1).val; omega

/-- An index of the result array is in point t's block iff each coordinate is in the block's range on its axis. -/
theorem mem_block (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v61).slice (win3_2.rect t)).set ↔ _
  rw [View.set_slice_whole, Rect.mem_set_unit]
  exact Iff.rfl

/-- The ten blocks tile the rows: row r is in the block of point r / 10000. -/
theorem covered (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- The result array after the region is the stage of the whole arrays as the region found them. -/
theorem final (c : Dev nD) : (dat3 (F := Ideal) V c).arrAt 2 cfg3.N = addRow (V c main_v59) (V c main_v60) :=
  (dat3 (F := Ideal) V c).arrAt_eq_of_cover 2 (addRow (V c main_v59) (V c main_v60)) (fun t _ => flushed_eq V c t) covered

end Cert.KernelIdeal.Region3

end
-- ==== Proof.KernelValue.lean ====
/-
  The idealized kernel program's result, read back through its nine segments.

  The buffer contents after the last segment are a fold through @main: a stretch of host operations rewrites the buffers it
  writes (the host-stretch module), a region leaves in its result array the row stage of the arrays it found (the four
  region modules) and every other buffer as it was.  Read backwards from the result buffer: region 3 adds the second bias
  row to what the second aggregation left; that aggregation gathers rows of region 2's product of region 1's result with
  the second weight matrix; region 1 floors at zero the first aggregation plus the first bias row; the first aggregation
  gathers rows of region 0's product of the node features with the first weight matrix.  The sources, the destinations
  and the edge weights are computed once, before region 0, and no region and no later host operation writes their
  buffers, so both aggregations read the same three vectors.  Altogether the result is `network` of the argument arrays
  with the plain spelling of the edge weight.
-/
import proofs.«124230_j49400713838982_1_alg».proof.Proof.Gen.KernelIdeal.Frame
import proofs.«124230_j49400713838982_1_alg».proof.Proof.GcnSpec
import proofs.«124230_j49400713838982_1_alg».proof.Proof.HostStretches
import proofs.«124230_j49400713838982_1_alg».proof.Proof.Region0
import proofs.«124230_j49400713838982_1_alg».proof.Proof.Region1
import proofs.«124230_j49400713838982_1_alg».proof.Proof.Region2
import proofs.«124230_j49400713838982_1_alg».proof.Proof.Region3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Host Cert.LibRowStages Cert.Gcn

variable (m : (ℓ : Loc nD τ sig) → Buf (Elt Ideal) ℓ) (ρ : Dev nD → PrngReg) (c : Dev nD)

/-! ## At region 0's entry -/

/-- The node features are as launched. -/
theorem entry_main_arg0 : W3 (F := Ideal) m ρ c (Proc.devRef .tc main_arg0) = m ((c : Thread nD τ).loc main_arg0) := by
  show StableHlo.after hostOps0_2 (StableHlo.after hostOps0_1 (StableHlo.after hostOps0 (W0 (F := Ideal) m ρ c))) (Proc.devRef .tc main_arg0) = _
  rw [hostOps0_2_keeps_main_arg0, hostOps0_1_keeps_main_arg0, hostOps0_keeps_main_arg0]

/-- The first weight matrix is as launched. -/
theorem entry_main_arg2 : W3 (F := Ideal) m ρ c (Proc.devRef .tc main_arg2) = m ((c : Thread nD τ).loc main_arg2) := by
  show StableHlo.after hostOps0_2 (StableHlo.after hostOps0_1 (StableHlo.after hostOps0 (W0 (F := Ideal) m ρ c))) (Proc.devRef .tc main_arg2) = _
  rw [hostOps0_2_keeps_main_arg2, hostOps0_1_keeps_main_arg2, hostOps0_keeps_main_arg2]

/-- The first bias vector is as launched. -/
theorem entry_main_arg3 : W3 (F := Ideal) m ρ c (Proc.devRef .tc main_arg3) = m ((c : Thread nD τ).loc main_arg3) := by
  show StableHlo.after hostOps0_2 (StableHlo.after hostOps0_1 (StableHlo.after hostOps0 (W0 (F := Ideal) m ρ c))) (Proc.devRef .tc main_arg3) = _
  rw [hostOps0_2_keeps_main_arg3, hostOps0_1_keeps_main_arg3, hostOps0_keeps_main_arg3]

/-- The second weight matrix is as launched. -/
theorem entry_main_arg4 : W3 (F := Ideal) m ρ c (Proc.devRef .tc main_arg4) = m ((c : Thread nD τ).loc main_arg4) := by
  show StableHlo.after hostOps0_2 (StableHlo.after hostOps0_1 (StableHlo.after hostOps0 (W0 (F := Ideal) m ρ c))) (Proc.devRef .tc main_arg4) = _
  rw [hostOps0_2_keeps_main_arg4, hostOps0_1_keeps_main_arg4, hostOps0_keeps_main_arg4]

/-- The second bias vector is as launched. -/
theorem entry_main_arg5 : W3 (F := Ideal) m ρ c (Proc.devRef .tc main_arg5) = m ((c : Thread nD τ).loc main_arg5) := by
  show StableHlo.after hostOps0_2 (StableHlo.after hostOps0_1 (StableHlo.after hostOps0 (W0 (F := Ideal) m ρ c))) (Proc.devRef .tc main_arg5) = _
  rw [hostOps0_2_keeps_main_arg5, hostOps0_1_keeps_main_arg5, hostOps0_keeps_main_arg5]

/-- The sources of the edge entries. -/
theorem entry_main_v3 : W3 (F := Ideal) m ρ c (Proc.devRef .tc main_v3) = srcOf (m ((c : Thread nD τ).loc main_arg1)) := by
  show StableHlo.after hostOps0_2 (StableHlo.after hostOps0_1 (StableHlo.after hostOps0 (W0 (F := Ideal) m ρ c))) (Proc.devRef .tc main_v3) = _
  rw [hostOps0_2_keeps_main_v3, hostOps0_1_keeps_main_v3, src_eq]

/-- The destinations of the edge entries. -/
theorem entry_main_v6 : W3 (F := Ideal) m ρ c (Proc.devRef .tc main_v6) = dstOf (m ((c : Thread nD τ).loc main_arg1)) := by
  show StableHlo.after hostOps0_2 (StableHlo.after hostOps0_1 (StableHlo.after hostOps0 (W0 (F := Ideal) m ρ c))) (Proc.devRef .tc main_v6) = _
  rw [hostOps0_2_keeps_main_v6, hostOps0_1_keeps_main_v6, dst_eq]

/-- The edge weights: dinv at the source times dinv at the destination. -/
theorem entry_main_v29 : W3 (F := Ideal) m ρ c (Proc.devRef .tc main_v29) = weightPlain (srcOf (m ((c : Thread nD τ).loc main_arg1))) (dstOf (m ((c : Thread nD τ).loc main_arg1))) := by
  show StableHlo.after hostOps0_2 (StableHlo.after hostOps0_1 (StableHlo.after hostOps0 (W0 (F := Ideal) m ρ c))) (Proc.devRef .tc main_v29) = _
  rw [weight_eq, where_eq, hostOps0_1_keeps_main_v3, hostOps0_1_keeps_main_v6, positive_eq, rsqrt_eq, zero_eq, src_eq, dst_eq]
  rfl

/-! ## Buffers nothing writes between region 0's entry and a later region's entry -/

/-- `main_arg4` is written by no region and by no host operation between region 0's entry and region 2's entry. -/
theorem carry5_main_arg4 : W5 (F := Ideal) m ρ c (Proc.devRef .tc main_arg4) = W3 (F := Ideal) m ρ c (Proc.devRef .tc main_arg4) :=
  calc W5 (F := Ideal) m ρ c (Proc.devRef .tc main_arg4)
    _ = W4 (F := Ideal) m ρ c (Proc.devRef .tc main_arg4) := hostOps1_keeps_main_arg4 (W4 (F := Ideal) m ρ c)
    _ = W3 (F := Ideal) m ρ c (Proc.devRef .tc main_arg4) := W4_of_ne m ρ c main_arg4 (by decide)
theorem carry6_main_arg4 : W6 (F := Ideal) m ρ c (Proc.devRef .tc main_arg4) = W3 (F := Ideal) m ρ c (Proc.devRef .tc main_arg4) :=
  (W6_of_ne m ρ c main_arg4 (by decide)).trans (carry5_main_arg4 m ρ c)

/-- `main_arg5` is written by no region and by no host operation between region 0's entry and region 3's entry. -/
theorem carry5_main_arg5 : W5 (F := Ideal) m ρ c (Proc.devRef .tc main_arg5) = W3 (F := Ideal) m ρ c (Proc.devRef .tc main_arg5) :=
  calc W5 (F := Ideal) m ρ c (Proc.devRef .tc main_arg5)
    _ = W4 (F := Ideal) m ρ c (Proc.devRef .tc main_arg5) := hostOps1_keeps_main_arg5 (W4 (F := Ideal) m ρ c)
    _ = W3 (F := Ideal) m ρ c (Proc.devRef .tc main_arg5) := W4_of_ne m ρ c main_arg5 (by decide)
theorem carry6_main_arg5 : W6 (F := Ideal) m ρ c (Proc.devRef .tc main_arg5) = W3 (F := Ideal) m ρ c (Proc.devRef .tc main_arg5) :=
  (W6_of_ne m ρ c main_arg5 (by decide)).trans (carry5_main_arg5 m ρ c)
theorem carry_main_arg5 : W7 (F := Ideal) m ρ c (Proc.devRef .tc main_arg5) = W3 (F := Ideal) m ρ c (Proc.devRef .tc main_arg5) :=
  (W7_of_ne m ρ c main_arg5 (by decide)).trans (carry6_main_arg5 m ρ c)

/-- `main_v3` is written by no region and by no host operation between region 0's entry and region 3's entry. -/
theorem carry5_main_v3 : W5 (F := Ideal) m ρ c (Proc.devRef .tc main_v3) = W3 (F := Ideal) m ρ c (Proc.devRef .tc main_v3) :=
  calc W5 (F := Ideal) m ρ c (Proc.devRef .tc main_v3)
    _ = W4 (F := Ideal) m ρ c (Proc.devRef .tc main_v3) := hostOps1_keeps_main_v3 (W4 (F := Ideal) m ρ c)
    _ = W3 (F := Ideal) m ρ c (Proc.devRef .tc main_v3) := W4_of_ne m ρ c main_v3 (by decide)
theorem carry6_main_v3 : W6 (F := Ideal) m ρ c (Proc.devRef .tc main_v3) = W3 (F := Ideal) m ρ c (Proc.devRef .tc main_v3) :=
  (W6_of_ne m ρ c main_v3 (by decide)).trans (carry5_main_v3 m ρ c)
theorem carry_main_v3 : W7 (F := Ideal) m ρ c (Proc.devRef .tc main_v3) = W3 (F := Ideal) m ρ c (Proc.devRef .tc main_v3) :=
  (W7_of_ne m ρ c main_v3 (by decide)).trans (carry6_main_v3 m ρ c)

/-- `main_v6` is written by no region and by no host operation between region 0's entry and region 3's entry. -/
theorem carry5_main_v6 : W5 (F := Ideal) m ρ c (Proc.devRef .tc main_v6) = W3 (F := Ideal) m ρ c (Proc.devRef .tc main_v6) :=
  calc W5 (F := Ideal) m ρ c (Proc.devRef .tc main_v6)
    _ = W4 (F := Ideal) m ρ c (Proc.devRef .tc main_v6) := hostOps1_keeps_main_v6 (W4 (F := Ideal) m ρ c)
    _ = W3 (F := Ideal) m ρ c (Proc.devRef .tc main_v6) := W4_of_ne m ρ c main_v6 (by decide)
theorem carry6_main_v6 : W6 (F := Ideal) m ρ c (Proc.devRef .tc main_v6) = W3 (F := Ideal) m ρ c (Proc.devRef .tc main_v6) :=
  (W6_of_ne m ρ c main_v6 (by decide)).trans (carry5_main_v6 m ρ c)
theorem carry_main_v6 : W7 (F := Ideal) m ρ c (Proc.devRef .tc main_v6) = W3 (F := Ideal) m ρ c (Proc.devRef .tc main_v6) :=
  (W7_of_ne m ρ c main_v6 (by decide)).trans (carry6_main_v6 m ρ c)

/-- `main_v29` is written by no region and by no host operation between region 0's entry and region 3's entry. -/
theorem carry5_main_v29 : W5 (F := Ideal) m ρ c (Proc.devRef .tc main_v29) = W3 (F := Ideal) m ρ c (Proc.devRef .tc main_v29) :=
  calc W5 (F := Ideal) m ρ c (Proc.devRef .tc main_v29)
    _ = W4 (F := Ideal) m ρ c (Proc.devRef .tc main_v29) := hostOps1_keeps_main_v29 (W4 (F := Ideal) m ρ c)
    _ = W3 (F := Ideal) m ρ c (Proc.devRef .tc main_v29) := W4_of_ne m ρ c main_v29 (by decide)
theorem carry6_main_v29 : W6 (F := Ideal) m ρ c (Proc.devRef .tc main_v29) = W3 (F := Ideal) m ρ c (Proc.devRef .tc main_v29) :=
  (W6_of_ne m ρ c main_v29 (by decide)).trans (carry5_main_v29 m ρ c)
theorem carry_main_v29 : W7 (F := Ideal) m ρ c (Proc.devRef .tc main_v29) = W3 (F := Ideal) m ρ c (Proc.devRef .tc main_v29) :=
  (W7_of_ne m ρ c main_v29 (by decide)).trans (carry6_main_v29 m ρ c)

/-! ## The first layer -/

/-- Region 0 leaves the product of the node features with the first weight matrix. -/
theorem product1 : W4 (F := Ideal) m ρ c (Proc.devRef .tc main_v30) = mm (m ((c : Thread nD τ).loc main_arg0)) (m ((c : Thread nD τ).loc main_arg2)) := by
  rw [W4_arr m ρ c 2, Cert.KernelIdeal.Region0.final (V3 (F := Ideal) m ρ) c]
  show mm (W3 (F := Ideal) m ρ c (Proc.devRef .tc main_arg0)) (W3 (F := Ideal) m ρ c (Proc.devRef .tc main_arg2)) = _
  rw [entry_main_arg0, entry_main_arg2]

/-- The first aggregation, over region 0's product. -/
theorem aggregate1 : W5 (F := Ideal) m ρ c (Proc.devRef .tc main_v43)
    = agg64 (mm (m ((c : Thread nD τ).loc main_arg0)) (m ((c : Thread nD τ).loc main_arg2))) (srcOf (m ((c : Thread nD τ).loc main_arg1))) (dstOf (m ((c : Thread nD τ).loc main_arg1)))
        (weightPlain (srcOf (m ((c : Thread nD τ).loc main_arg1))) (dstOf (m ((c : Thread nD τ).loc main_arg1)))) := by
  show StableHlo.after hostOps1 (W4 (F := Ideal) m ρ c) (Proc.devRef .tc main_v43) = _
  rw [aggregate64_eq, product1, W4_of_ne m ρ c main_v3 (by decide), W4_of_ne m ρ c main_v6 (by decide), W4_of_ne m ρ c main_v29 (by decide),
    entry_main_v3, entry_main_v6, entry_main_v29]

/-- The first bias vector as a row. -/
theorem biasRow1 : W5 (F := Ideal) m ρ c (Proc.devRef .tc main_v44) = shapeCast S1x64 (m ((c : Thread nD τ).loc main_arg3)) shapeCasts_S64_S1x64 := by
  show StableHlo.after hostOps1 (W4 (F := Ideal) m ρ c) (Proc.devRef .tc main_v44) = _
  rw [biasRow64_eq, W4_of_ne m ρ c main_arg3 (by decide), entry_main_arg3]

/-- Region 1 leaves the hidden layer. -/
theorem hidden_eq : W6 (F := Ideal) m ρ c (Proc.devRef .tc main_v45)
    = hidden (m ((c : Thread nD τ).loc main_arg0)) (srcOf (m ((c : Thread nD τ).loc main_arg1))) (dstOf (m ((c : Thread nD τ).loc main_arg1)))
        (weightPlain (srcOf (m ((c : Thread nD τ).loc main_arg1))) (dstOf (m ((c : Thread nD τ).loc main_arg1)))) (m ((c : Thread nD τ).loc main_arg2))
        (shapeCast S1x64 (m ((c : Thread nD τ).loc main_arg3)) shapeCasts_S64_S1x64) := by
  rw [W6_arr m ρ c 2, Cert.KernelIdeal.Region1.final (V5 (F := Ideal) m ρ) c]
  show relu (addRow (W5 (F := Ideal) m ρ c (Proc.devRef .tc main_v43)) (W5 (F := Ideal) m ρ c (Proc.devRef .tc main_v44))) = _
  rw [aggregate1, biasRow1]
  rfl

/-! ## The second layer -/

/-- Region 2 leaves the product of the hidden layer with the second weight matrix. -/
theorem product2 : W7 (F := Ideal) m ρ c (Proc.devRef .tc main_v46)
    = mm (hidden (m ((c : Thread nD τ).loc main_arg0)) (srcOf (m ((c : Thread nD τ).loc main_arg1))) (dstOf (m ((c : Thread nD τ).loc main_arg1)))
        (weightPlain (srcOf (m ((c : Thread nD τ).loc main_arg1))) (dstOf (m ((c : Thread nD τ).loc main_arg1)))) (m ((c : Thread nD τ).loc main_arg2))
        (shapeCast S1x64 (m ((c : Thread nD τ).loc main_arg3)) shapeCasts_S64_S1x64)) (m ((c : Thread nD τ).loc main_arg4)) := by
  rw [W7_arr m ρ c 2, Cert.KernelIdeal.Region2.final (V6 (F := Ideal) m ρ) c]
  show mm (W6 (F := Ideal) m ρ c (Proc.devRef .tc main_v45)) (W6 (F := Ideal) m ρ c (Proc.devRef .tc main_arg4)) = _
  rw [hidden_eq, carry6_main_arg4, entry_main_arg4]

/-- The program's result: the network of the argument arrays, the edge weight in its plain spelling. -/
theorem result_eq : W9 (F := Ideal) m ρ c (Proc.devRef .tc main_v61)
    = network (m ((c : Thread nD τ).loc main_arg0)) (srcOf (m ((c : Thread nD τ).loc main_arg1))) (dstOf (m ((c : Thread nD τ).loc main_arg1)))
        (weightPlain (srcOf (m ((c : Thread nD τ).loc main_arg1))) (dstOf (m ((c : Thread nD τ).loc main_arg1)))) (m ((c : Thread nD τ).loc main_arg2))
        (shapeCast S1x64 (m ((c : Thread nD τ).loc main_arg3)) shapeCasts_S64_S1x64) (m ((c : Thread nD τ).loc main_arg4))
        (shapeCast S1x40 (m ((c : Thread nD τ).loc main_arg5)) shapeCasts_S40_S1x40) := by
  rw [W9_arr m ρ c 2, Cert.KernelIdeal.Region3.final (V8 (F := Ideal) m ρ) c]
  show addRow (StableHlo.after hostOps3 (W7 (F := Ideal) m ρ c) (Proc.devRef .tc main_v59))
    (StableHlo.after hostOps3 (W7 (F := Ideal) m ρ c) (Proc.devRef .tc main_v60)) = _
  rw [aggregate40_eq, biasRow40_eq, product2, carry_main_v3, carry_main_v6, carry_main_v29, carry_main_arg5,
    entry_main_v3, entry_main_v6, entry_main_v29, entry_main_arg5]
  rfl

end Cert.KernelIdeal.Fold

end
-- ==== Proof.RefValue.lean ====
/-
  The reference program's result is the network of the specification, with the unit-weight spelling of the edge weight.

  The reference computes each layer as: the host's contraction of the node matrix with the weights (the matrix product
  `mm`), the aggregation along the edges, the bias vector placed as a row, spread over the rows and added (`addRow` of the
  vector reshaped to a row), and between the layers the maximum with a zero splat (`relu`).  It builds the degree, the
  reciprocal square roots and the edge weights once per layer, from the same index array, by the same operations: both
  copies are the one term `weightUnit` of the sources and destinations.  Read through the operations one at a time the
  result is `network` of the argument arrays.
-/
import proofs.«124230_j49400713838982_1_alg».proof.Proof.ReferenceRun
import proofs.«124230_j49400713838982_1_alg».proof.Proof.GcnSpec

set_option maxRecDepth 16384

noncomputable section

namespace Cert.ReferenceIdeal.RefValue

open Idealize.ShloMosaic Idealize.ShloMosaic.TcCoe Idealize.SL.Sem
open Cert.LibRowStages Cert.Gcn

/-- The network of the specification at the reference program's argument arrays, the edge weight given. -/
abbrev networkAt (m : (ℓ : Loc Cert.ReferenceIdeal.nD Cert.ReferenceIdeal.τ Cert.ReferenceIdeal.sig) → Buf (Elt Ideal) ℓ)
    (c : Dev Cert.ReferenceIdeal.nD) (w : EdgeIdx → EdgeIdx → EdgeVec) : Mat 100000 40 :=
  network (m ((c.tc : Thread Cert.ReferenceIdeal.nD Cert.ReferenceIdeal.τ).loc Cert.ReferenceIdeal.main_arg0))
    (srcOf (m ((c.tc : Thread Cert.ReferenceIdeal.nD Cert.ReferenceIdeal.τ).loc Cert.ReferenceIdeal.main_arg1)))
    (dstOf (m ((c.tc : Thread Cert.ReferenceIdeal.nD Cert.ReferenceIdeal.τ).loc Cert.ReferenceIdeal.main_arg1)))
    (w (srcOf (m ((c.tc : Thread Cert.ReferenceIdeal.nD Cert.ReferenceIdeal.τ).loc Cert.ReferenceIdeal.main_arg1)))
      (dstOf (m ((c.tc : Thread Cert.ReferenceIdeal.nD Cert.ReferenceIdeal.τ).loc Cert.ReferenceIdeal.main_arg1))))
    (m ((c.tc : Thread Cert.ReferenceIdeal.nD Cert.ReferenceIdeal.τ).loc Cert.ReferenceIdeal.main_arg2))
    (shapeCast Cert.KernelIdeal.S1x64 (m ((c.tc : Thread Cert.ReferenceIdeal.nD Cert.ReferenceIdeal.τ).loc Cert.ReferenceIdeal.main_arg3)) Cert.KernelIdeal.Facts₀.shapeCasts_S64_S1x64)
    (m ((c.tc : Thread Cert.ReferenceIdeal.nD Cert.ReferenceIdeal.τ).loc Cert.ReferenceIdeal.main_arg4))
    (shapeCast Cert.KernelIdeal.S1x40 (m ((c.tc : Thread Cert.ReferenceIdeal.nD Cert.ReferenceIdeal.τ).loc Cert.ReferenceIdeal.main_arg5)) Cert.KernelIdeal.Facts₀.shapeCasts_S40_S1x40)

/-- The reference's composed result term is the network with the unit-weight spelling of the edge weight. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v89 (F := Ideal) m c = networkAt m c weightUnit := by
  unfold Cert.ReferenceIdeal.ValueP.res_main_v89
  rw [dotGeneral_eq_mm Cert.ReferenceIdeal.dot_S100000x128_S128x64_S100000x64_1_0_0_1_n_n rfl rfl rfl rfl rfl rfl none,
    addf_hostBias_eq_addRow _ _ Cert.KernelIdeal.Facts₀.shapeCasts_S64_S1x64,
    maximumf_hostZero_eq_relu,
    dotGeneral_eq_mm Cert.ReferenceIdeal.dot_S100000x64_S64x40_S100000x40_1_0_0_1_n_n rfl rfl rfl rfl rfl rfl none,
    addf_hostBias_eq_addRow _ _ Cert.KernelIdeal.Facts₀.shapeCasts_S40_S1x40]
  rfl

end Cert.ReferenceIdeal.RefValue

end
-- ==== Proof.lean ====
/-
  A two-layer graph convolution: four row-blocked kernels with host gathers and scatters between them, against the plain
  array program.

  Both programs compute, from node features x, an edge list, two weight matrices and two bias vectors,
      out = A (relu (A (x · W1) + b1) · W2) + b2,
  where A is the normalised neighbourhood sum: every node also gets a loop to itself, an edge is weighted by
  dinv[source] · dinv[destination] with dinv the reciprocal square root of a node's in-degree (0 where the degree is not
  positive), and A t adds into each destination's row the weighted row of t at the edge's source.

  The kernel program runs the two matrix products and the two bias stages (the first floored at zero) as four kernels,
  each over ten blocks of 10000 rows; the gathers, the weights and the scatter-adds are host operations between them.
  Each kernel's body is a row stage (row r of its result depends on row r of its matrix operand only), so each leaves
  in its result array the stage of the whole arrays it found (the four region modules); reading the last boundary's
  contents back through the nine segments gives `network` of the argument arrays with the edge weight spelt
  dinv[src] · dinv[dst] (the kernel-value module).  The reference writes the same operations on whole arrays, once per
  layer, with the edge weight spelt (dinv[src] · 1) · dinv[dst]: its result is `network` with that spelling (the
  reference-value module).  On the extended reals a · 1 = a for every a, so the two spellings are one vector and the two
  results are equal, entry by entry, with nothing assumed of the inputs: the precondition is not used.

  The idealization rewrote no operation, so the `preserves` claim is trivial; the two kernel programs' frames are the
  generated ones, the reference's frame is its run with the result forgotten.
-/
import proofs.«124230_j49400713838982_1_alg».proof.Defs
import proofs.«124230_j49400713838982_1_alg».proof.Proof.Gen.Kernel
import proofs.«124230_j49400713838982_1_alg».proof.Proof.Gen.Kernel.Skeleton
import proofs.«124230_j49400713838982_1_alg».proof.Proof.Gen.Kernel.Launch
import proofs.«124230_j49400713838982_1_alg».proof.Proof.Gen.Kernel.Points
import proofs.«124230_j49400713838982_1_alg».proof.Proof.Gen.Kernel.Frame
import proofs.«124230_j49400713838982_1_alg».proof.Proof.Gen.KernelIdeal
import proofs.«124230_j49400713838982_1_alg».proof.Proof.Gen.KernelIdeal.Skeleton
import proofs.«124230_j49400713838982_1_alg».proof.Proof.Gen.KernelIdeal.Launch
import proofs.«124230_j49400713838982_1_alg».proof.Proof.Gen.KernelIdeal.Points
import proofs.«124230_j49400713838982_1_alg».proof.Proof.Gen.KernelIdeal.Frame
import proofs.«124230_j49400713838982_1_alg».proof.Proof.Gen.ReferenceIdeal
import proofs.«124230_j49400713838982_1_alg».proof.Proof.Gen.Pre_finite_inputs
import proofs.«124230_j49400713838982_1_alg».proof.Proof.ReferenceRun
import proofs.«124230_j49400713838982_1_alg».proof.Proof.GcnSpec
import proofs.«124230_j49400713838982_1_alg».proof.Proof.GcnWeight
import proofs.«124230_j49400713838982_1_alg».proof.Proof.KernelRun
import proofs.«124230_j49400713838982_1_alg».proof.Proof.KernelValue
import proofs.«124230_j49400713838982_1_alg».proof.Proof.RefValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments the two programs end with the same result: the kernel program's is the
    network with the plain edge weight, the reference's the network with the unit-weight spelling, and the two spellings
    are one vector. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v61),
    Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.result_eq m' c).trans (Eq.trans ?_ (Cert.KernelIdeal.Fold.result_eq m ρ c).symm)
  obtain ⟨h0, h1, h2, h3, h4, h5⟩ := hagree c
  unfold Cert.ReferenceIdeal.RefValue.networkAt
  rw [h0, h1, h2, h3, h4, h5, weightUnit_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
